-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S32x128 .f32) (main_arg3 : FVec F S32x128 .f32) (main_arg4 : FVec F S128 .f32) (main_arg5 : FVec F S128x128 .f32) (main_arg6 : FVec F S128x128 .f32) (main_arg7 : FVec F S128 .f32) (main_arg8 : FVec F S128x1 .f32) (main_arg9 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x128 : Shape := ⟨2, ![1, 128]⟩
abbrev S100000x128 : Shape := ⟨2, ![100000, 128]⟩
abbrev S5000x32 : Shape := ⟨2, ![5000, 32]⟩
abbrev S5000x128 : Shape := ⟨2, ![5000, 128]⟩
abbrev S1600000x128 : Shape := ⟨2, ![1600000, 128]⟩
abbrev S1x1 : Shape := ⟨2, ![1, 1]⟩
abbrev S5000x1 : Shape := ⟨2, ![5000, 1]⟩

abbrev nBuf : Space → Nat
  | .hbm => 61
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x32, .f32⟩
  | .hbm, ⟨34, _⟩ => ⟨S_, .f32⟩
  | .hbm, ⟨35, _⟩ => ⟨S100000x32, .f32⟩
  | .hbm, ⟨36, _⟩ => ⟨S1600000x1, .i32⟩
  | .hbm, ⟨37, _⟩ => ⟨S100000x32, .f32⟩
  | .hbm, ⟨38, _⟩ => ⟨S100000x32, .f32⟩
  | .hbm, ⟨39, _⟩ => ⟨S100000x32, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S1x1, .f32⟩
  | .hbm, ⟨59, _⟩ => ⟨S100000x1, .f32⟩
  | .hbm, ⟨60, _⟩ => ⟨S100000, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x128, .f32⟩
  | .local _ .vmem, ⟨5, _⟩ => ⟨S32x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S1_S1x1 : S1.ShapeCasts S1x1
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x128_S5000x128_1_0_0_1_n_n_wf : DotDims.WF S5000x32 S32x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v21) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x32, .f32⟩
  | .hbm, ⟨23, _⟩ => ⟨S_, .f32⟩
  | .hbm, ⟨24, _⟩ => ⟨S100000x32, .f32⟩
  | .hbm, ⟨25, _⟩ => ⟨S1600000x1, .i32⟩
  | .hbm, ⟨26, _⟩ => ⟨S100000x32, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x32, .f32⟩
  | .hbm, ⟨39, _⟩ => ⟨S100000x32, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x1, .f32⟩
  | .hbm, ⟨82, _⟩ => ⟨S1x1, .f32⟩
  | .hbm, ⟨83, _⟩ => ⟨S100000x1, .f32⟩
  | .hbm, ⟨84, _⟩ => ⟨S100000x1, .f32⟩
  | .hbm, ⟨85, _⟩ => ⟨S100000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x128_S100000x128_1_0_0_1_n_n_wf : DotDims.WF S100000x32 S32x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel program's run with its result named: every weakly fair execution terminates, nothing faults, the
  arguments end as launched, and the result array ends at the last boundary's contents `W7` of the generated frame —
  the fold of the host stretches and the two regions' write-backs from the launch memory. The run is the generated
  frame's own (the launch over the seven segments); only what is read off the last thread state is more: the result
  buffer besides the arguments.
-/
import proofs.«126448_j17171279250059_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its seven segments, the result buffer read off the last thread state beside the arguments. -/
theorem run_main : θ_run defs (onTc (τ := τ) (main (F := F))) ⟨m, fun _ => 0, ρ⟩ (fun r => ∀ c : Dev nD,
      r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Hand

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.KernelDots.lean ====
/-
  The three matrix products of the two kernel bodies, read at one output entry at the ideal values: a product into a
  zero accumulator of a [5000, K] block with a [K, B] matrix is, at entry (p, q), the sum over k of block (p, k) times
  matrix (k, q). The operands may be of any float format (the bodies narrow them to bf16 first, which changes nothing at
  the ideal values).
-/
import proofs.«126448_j17171279250059_1_alg».proof.Proof.Gen.KernelIdeal
import proofs.«126448_j17171279250059_1_alg».proof.Proof.LibDotRows

noncomputable section

namespace Cert.KernelIdeal.Hand

open Cert.KernelIdeal Cert.Hand Idealize.ShloMosaic Idealize.ShloMosaic.ValueIdx

variable {φ₁ φ₂ : FTy}

/-- [5000, 32] times [32, 128]. -/
theorem matmul_5000x32_apply (l : FVec Ideal S5000x32 φ₁) (r : FVec Ideal S32x128 φ₂) (p : Fin 5000) (q : Fin 128) :
    matmul dot_S5000x32_S32x128_S5000x128_1_0_0_1_n_n none l r (constant S5000x128 .f32 0x00000000#32) (ix2 p q)
      = ∑ k : Fin 32, l (ix2 p k) * r (ix2 k q) := by
  simp only [matmul]
  rw [Ideal.matmul_constant_zero_apply]
  dot_rows dot_S5000x32_S32x128_S5000x128_1_0_0_1_n_n S5000x32 S32x128 32

/-- [5000, 128] times [128, 128]. -/
theorem matmul_5000x128_apply (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply]
  dot_rows dot_S5000x128_S128x128_S5000x128_1_0_0_1_n_n S5000x128 S128x128 128

/-- [5000, 128] times [128, 1]. -/
theorem matmul_5000x128_col_apply (l : FVec Ideal S5000x128 φ₁) (r : FVec Ideal S128x1 φ₂) (p : Fin 5000) (q : Fin 1) :
    matmul dot_S5000x128_S128x1_S5000x1_1_0_0_1_n_n none l r (constant S5000x1 .f32 0x00000000#32) (ix2 p q)
      = ∑ k : Fin 128, l (ix2 p k) * r (ix2 k q) := by
  simp only [matmul]
  rw [Ideal.matmul_constant_zero_apply]
  dot_rows dot_S5000x128_S128x1_S5000x1_1_0_0_1_n_n S5000x128 S128x1 128

end Cert.KernelIdeal.Hand

end
-- ==== Proof.Payloads.lean ====
/-
  What the two kernel bodies store, read at one entry of the stored block at the ideal values. Narrowing an operand to
  bf16 and a shape cast to the same shape change nothing there; a product into a zero accumulator is the plain sum of
  products; the [1, B] bias row is broadcast over the block's rows.
      body 1 at (p, q) = max ((Σ_k m (p,k) · wl (k,q) + Σ_k x (p,k) · wr (k,q)) + b (0,q)) 0
      body 2 at (p, 0) = Σ_j ((Σ_k m (p,k) · wl (k,j) + Σ_k h (p,k) · wr (k,j)) + b (0,j)) · wlin (j,0) + blin (0,0)
-/
import proofs.«126448_j17171279250059_1_alg».proof.Proof.KernelDots
import proofs.«126448_j17171279250059_1_alg».proof.Proof.Gen.KernelIdeal.Skeleton
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-- The first body's stored block at (p, q). -/
theorem pay0_apply (x0 x1 : Vec Ideal S5000x32 .f32) (x2 x3 : Vec Ideal S32x128 .f32) (x4 : Vec Ideal S1x128 .f32)
    (p : Fin 5000) (q : Fin 128) :
    k0_pay1 (F := Ideal) x0 x1 x2 x3 x4 (ix2 p q)
      = max ((∑ k : Fin 32, x0 (ix2 p k) * x2 (ix2 k q) + ∑ k : Fin 32, x1 (ix2 p k) * x3 (ix2 k q)) + x4 (ix2 (0 : Fin 1) q))
          (Ideal.ofBits .f32 0x00000000#32) := by
  unfold k0_pay1
  rw [maximumf_apply, addf_apply, addf_apply, matmul_5000x32_apply, matmul_5000x32_apply, broadcastTo_1b_ab_apply]
  simp only [shapeCast_self, truncf_apply, broadcast_apply]
  rfl

/-- The second body's stored block at (p, q), q the one column. -/
theorem pay1_apply (x0 x1 : Vec Ideal S5000x128 .f32) (x2 x3 : Vec Ideal S128x128 .f32) (x4 : Vec Ideal S1x128 .f32)
    (x5 : Vec Ideal S128x1 .f32) (x6 : Vec Ideal S1x1 .f32) (p : Fin 5000) (q : Fin 1) :
    k1_pay1 (F := Ideal) x0 x1 x2 x3 x4 x5 x6 (ix2 p q)
      = (∑ j : Fin 128, ((∑ k : Fin 128, x0 (ix2 p k) * x2 (ix2 k j) + ∑ k : Fin 128, x1 (ix2 p k) * x3 (ix2 k j)) + x4 (ix2 (0 : Fin 1) j))
            * x5 (ix2 j q))
          + x6 (ix2 (0 : Fin 1) q) := by
  unfold k1_pay1
  rw [addf_apply, matmul_5000x128_col_apply, broadcastTo_1b_ab_apply]
  simp only [shapeCast_self, truncf_apply]
  refine congrArg (· + x6 (ix2 (0 : Fin 1) q)) (Finset.sum_congr rfl fun j _ => ?_)
  rw [addf_apply, addf_apply, matmul_5000x128_apply, matmul_5000x128_apply, broadcastTo_1b_ab_apply]
  simp only [shapeCast_self, truncf_apply]

end Cert.KernelIdeal.Hand

end
-- ==== Proof.ReferenceDots.lean ====
/-
  The three matrix products of the reference, read at one output entry at the ideal values: the host's product of a
  [100000, K] array with a [K, B] matrix is, at entry (p, q), the sum over k of array (p, k) times matrix (k, q).
-/
import proofs.«126448_j17171279250059_1_alg».proof.Proof.Gen.ReferenceIdeal
import proofs.«126448_j17171279250059_1_alg».proof.Proof.LibDotRows

noncomputable section

namespace Cert.ReferenceIdeal.Hand

open Cert.ReferenceIdeal Cert.Hand Idealize.ShloMosaic Idealize.ShloMosaic.ValueIdx

variable {φ₁ φ₂ : FTy}

/-- [100000, 32] times [32, 128]. -/
theorem dot_100000x32_apply (l : FVec Ideal S100000x32 φ₁) (r : FVec Ideal S32x128 φ₂) (p : Fin 100000) (q : Fin 128) :
    Host.dotGeneral dot_S100000x32_S32x128_S100000x128_1_0_0_1_n_n none l r (ix2 p q)
      = ∑ k : Fin 32, l (ix2 p k) * r (ix2 k q) := by
  simp only [Host.dotGeneral]
  rw [Ideal.dotGeneral_apply]
  dot_rows dot_S100000x32_S32x128_S100000x128_1_0_0_1_n_n S100000x32 S32x128 32

/-- [100000, 128] times [128, 128]. -/
theorem dot_100000x128_apply (l : FVec Ideal S100000x128 φ₁) (r : FVec Ideal S128x128 φ₂) (p : Fin 100000) (q : Fin 128) :
    Host.dotGeneral dot_S100000x128_S128x128_S100000x128_1_0_0_1_n_n none l r (ix2 p q)
      = ∑ k : Fin 128, l (ix2 p k) * r (ix2 k q) := by
  simp only [Host.dotGeneral]
  rw [Ideal.dotGeneral_apply]
  dot_rows dot_S100000x128_S128x128_S100000x128_1_0_0_1_n_n S100000x128 S128x128 128

/-- [100000, 128] times [128, 1]. -/
theorem dot_100000x128_col_apply (l : FVec Ideal S100000x128 φ₁) (r : FVec Ideal S128x1 φ₂) (p : Fin 100000) (q : Fin 1) :
    Host.dotGeneral dot_S100000x128_S128x1_S100000x1_1_0_0_1_n_n none l r (ix2 p q)
      = ∑ k : Fin 128, l (ix2 p k) * r (ix2 k q) := by
  simp only [Host.dotGeneral]
  rw [Ideal.dotGeneral_apply]
  dot_rows dot_S100000x128_S128x1_S100000x1_1_0_0_1_n_n S100000x128 S128x1 128

end Cert.ReferenceIdeal.Hand

end
-- ==== Proof.Layers.lean ====
/-
  The two SAGE layers as whole-array functions, spelt with the host operations the reference applies, and each read at
  one entry at the ideal values.

  Notation: N = 100000 nodes, E = 1600000 edges; edge i goes from node src i to node dst i; deg v is the number of edges
  into v, clipped below at one.  For a node-feature array X the neighbour mean is
      mean X (v, k) = (sum over the edges i with dst i = v of X (src i, k)) / deg v,
  a host gather, a host scatter-add and a host division; they are never opened here.  The layers are
      layer1 (v, j) = max ((Σ_k mean (v,k) · Wl (k,j) + Σ_k x (v,k) · Wr (k,j)) + b j) 0
      layer2 (v, 0) = Σ_j ((Σ_k mean (v,k) · Wl (k,j) + Σ_k h (v,k) · Wr (k,j)) + b j) · Wlin (j,0) + blin
-/
import proofs.«126448_j17171279250059_1_alg».proof.Proof.ReferenceDots
import Idealize.ShloMosaic.Lib.Pipeline.Value
import Idealize.ShloMosaic.Lib.ValueLayout

noncomputable section

namespace Cert.ReferenceIdeal.Hand

open Cert.ReferenceIdeal Cert.ReferenceIdeal.Gen Idealize.ShloMosaic Idealize.ShloMosaic.ValueIdx

variable {F : FTy → Type} [FloatOps F]

/-! ## The shared host pieces (never opened) -/

/-- Row 0 of the edge list: each edge's source node. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: each edge's destination node. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- An index row as the index column a gather takes, a negative index counted from the end. -/
def wrapCol (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- An index row as the index column a scatter takes. -/
def idxCol (d : (⟨S1600000, .i32⟩ : BufTy).Contents (Elt F)) : (⟨S1600000x1, .i32⟩ : BufTy).Contents (Elt F) :=
  broadcastInDim S1600000x1 ![0] bcast_S1600000_S1600000x1_0 d

/-- The in-degrees before clipping: one added at each edge's destination. -/
def degRaw (d : (⟨S1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32))
    (idxCol d) (broadcastInDim S1600000 ![] bcast_S_S1600000 (constant S_ .f32 0x3F800000#32))

/-- The in-degrees clipped below at one, as a column. -/
def degCol (raw : (⟨S100000, .f32⟩ : BufTy).Contents (Elt F)) : (⟨S100000x1, .f32⟩ : BufTy).Contents (Elt F) :=
  broadcastInDim S100000x1 ![0] bcast_S100000_S100000x1_0
    (maximumf (broadcastInDim S100000 ![] bcast_S_S100000 (id (constant S_ .f32 0x3F800000#32))) raw)

/-- The neighbour mean of a [N, 32] feature array. -/
def mean32 (x : (⟨S100000x32, .f32⟩ : BufTy).Contents (Elt F)) (s d : (⟨S1600000, .i32⟩ : BufTy).Contents (Elt F))
    (deg : (⟨S100000x1, .f32⟩ : BufTy).Contents (Elt F)) : (⟨S100000x32, .f32⟩ : BufTy).Contents (Elt F) :=
  Host.divf (Host.scatterAdd scatter_S100000x32_S1600000x1_S1600000x32_1_0_0_1 (broadcastInDim S100000x32 ![] bcast_S_S100000x32 (constant S_ .f32 0x00000000#32))
      (idxCol d) (Host.gather gather_S100000x32_S1600000x1_S1600000x32_1_0_n_n_0_1_132 x (wrapCol s)))
    (broadcastInDim S100000x32 ![0, 1] bcast_S100000x1_S100000x32_0_1 deg)

/-- The neighbour mean of a [N, 128] feature array. -/
def mean128 (h : (⟨S100000x128, .f32⟩ : BufTy).Contents (Elt F)) (s d : (⟨S1600000, .i32⟩ : BufTy).Contents (Elt F))
    (deg : (⟨S100000x1, .f32⟩ : BufTy).Contents (Elt F)) : (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32))
      (idxCol d) (Host.gather gather_S100000x128_S1600000x1_S1600000x128_1_0_n_n_0_1_1128 h (wrapCol s)))
    (broadcastInDim S100000x128 ![0, 1] bcast_S100000x1_S100000x128_0_1 deg)

/-- A bias vector as the one row the reference broadcasts. -/
def biasRow (b : (⟨S128, .f32⟩ : BufTy).Contents (Elt F)) : (⟨S1x128, .f32⟩ : BufTy).Contents (Elt F) :=
  broadcastInDim S1x128 ![1] bcast_S128_S1x128_1 b

/-- The head's bias as the one entry the reference broadcasts. -/
def headRow (b : (⟨S1, .f32⟩ : BufTy).Contents (Elt F)) : (⟨S1x1, .f32⟩ : BufTy).Contents (Elt F) :=
  broadcastInDim S1x1 ![1] bcast_S1_S1x1_1 b

/-! ## The layers -/

/-- Layer 1: relu (mean · Wl + x · Wr + b). -/
def layer1 (mean x : (⟨S100000x32, .f32⟩ : BufTy).Contents (Elt F)) (Wl Wr : (⟨S32x128, .f32⟩ : BufTy).Contents (Elt F))
    (brow : (⟨S1x128, .f32⟩ : BufTy).Contents (Elt F)) : (⟨S100000x128, .f32⟩ : BufTy).Contents (Elt F) :=
  maximumf (addf (addf (Host.dotGeneral dot_S100000x32_S32x128_S100000x128_1_0_0_1_n_n none mean Wl)
        (Host.dotGeneral dot_S100000x32_S32x128_S100000x128_1_0_0_1_n_n none x Wr))
      (broadcastInDim S100000x128 ![0, 1] bcast_S1x128_S100000x128_0_1 brow))
    (broadcastInDim S100000x128 ![] bcast_S_S100000x128 (constant S_ .f32 0x00000000#32))

/-- Layer 2 with the linear head: (mean · Wl + h · Wr + b) · Wlin + blin. -/
def layer2 (mean h : (⟨S100000x128, .f32⟩ : BufTy).Contents (Elt F)) (Wl Wr : (⟨S128x128, .f32⟩ : BufTy).Contents (Elt F))
    (brow : (⟨S1x128, .f32⟩ : BufTy).Contents (Elt F)) (Wlin : (⟨S128x1, .f32⟩ : BufTy).Contents (Elt F))
    (lrow : (⟨S1x1, .f32⟩ : BufTy).Contents (Elt F)) : (⟨S100000x1, .f32⟩ : BufTy).Contents (Elt F) :=
  addf (Host.dotGeneral dot_S100000x128_S128x1_S100000x1_1_0_0_1_n_n none
      (addf (addf (Host.dotGeneral dot_S100000x128_S128x128_S100000x128_1_0_0_1_n_n none mean Wl)
          (Host.dotGeneral dot_S100000x128_S128x128_S100000x128_1_0_0_1_n_n none h Wr))
        (broadcastInDim S100000x128 ![0, 1] bcast_S1x128_S100000x128_0_1 brow)) Wlin)
    (broadcastInDim S100000x1 ![0, 1] bcast_S1x1_S100000x1_0_1 lrow)

/-- The whole network on the arguments. -/
def network (x : (⟨S100000x32, .f32⟩ : BufTy).Contents (Elt F)) (e : (⟨S2x1600000, .i32⟩ : BufTy).Contents (Elt F))
    (Wl1 Wr1 : (⟨S32x128, .f32⟩ : BufTy).Contents (Elt F)) (b1 : (⟨S128, .f32⟩ : BufTy).Contents (Elt F))
    (Wl2 Wr2 : (⟨S128x128, .f32⟩ : BufTy).Contents (Elt F)) (b2 : (⟨S128, .f32⟩ : BufTy).Contents (Elt F))
    (Wlin : (⟨S128x1, .f32⟩ : BufTy).Contents (Elt F)) (blin : (⟨S1, .f32⟩ : BufTy).Contents (Elt F)) :
    (⟨S100000, .f32⟩ : BufTy).Contents (Elt F) :=
  shapeCast _
    (layer2 (mean128 (layer1 (mean32 x (srcRow e) (dstRow e) (degCol (degRaw (dstRow e)))) x Wl1 Wr1 (biasRow b1))
        (srcRow e) (dstRow e) (degCol (degRaw (dstRow e))))
      (layer1 (mean32 x (srcRow e) (dstRow e) (degCol (degRaw (dstRow e)))) x Wl1 Wr1 (biasRow b1))
      Wl2 Wr2 (biasRow b2) Wlin (headRow blin))
    shapeCasts_S100000x1_S100000

/-! ## The broadcasts read at an entry -/

/-- A [1, 128] row broadcast over the N rows reads the row at its column. -/
theorem row_bcast_apply (brow : (⟨S1x128, .f32⟩ : BufTy).Contents (Elt F)) (r : Fin 100000) (q : Fin 128) :
    broadcastInDim S100000x128 ![0, 1] bcast_S1x128_S100000x128_0_1 brow (ix2 r q) = brow (ix2 (0 : Fin 1) q) :=
  broadcastInDim_apply _ bcast_S1x128_S100000x128_0_1 brow (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- A [1, 1] entry broadcast over the N rows reads that entry. -/
theorem head_bcast_apply (lrow : (⟨S1x1, .f32⟩ : BufTy).Contents (Elt F)) (r : Fin 100000) (q : Fin 1) :
    broadcastInDim S100000x1 ![0, 1] bcast_S1x1_S100000x1_0_1 lrow (ix2 r q) = lrow (ix2 (0 : Fin 1) q) :=
  broadcastInDim_apply _ bcast_S1x1_S100000x1_0_1 lrow (ix2 r q) (ix2 (0 : Fin 1) q) (fun a => match a with
    | ⟨0, _⟩ => by show 0 = if (1 : Nat) = 1 then 0 else r.val; rw [if_pos rfl]
    | ⟨1, _⟩ => by show q.val = if (1 : Nat) = 1 then 0 else q.val; rw [if_pos rfl]; omega)

/-- The zero splat reads the zero word's value everywhere. -/
theorem zero_bcast_apply (r : Fin 100000) (q : Fin 128) :
    broadcastInDim S100000x128 ![] bcast_S_S100000x128 (constant (F := Ideal) S_ .f32 0x00000000#32) (ix2 r q)
      = Ideal.ofBits .f32 0x00000000#32 :=
  broadcastInDim_apply _ bcast_S_S100000x128 (constant (F := Ideal) S_ .f32 0x00000000#32) (ix2 r q) ix0 (fun a => a.elim0)

/-! ## The layers read at an entry, at the ideal values -/

theorem layer1_apply (mean x : (⟨S100000x32, .f32⟩ : BufTy).Contents (Elt Ideal)) (Wl Wr : (⟨S32x128, .f32⟩ : BufTy).Contents (Elt Ideal))
    (brow : (⟨S1x128, .f32⟩ : BufTy).Contents (Elt Ideal)) (r : Fin 100000) (q : Fin 128) :
    layer1 (F := Ideal) mean x Wl Wr brow (ix2 r q)
      = max ((∑ k : Fin 32, mean (ix2 r k) * Wl (ix2 k q) + ∑ k : Fin 32, x (ix2 r k) * Wr (ix2 k q)) + brow (ix2 (0 : Fin 1) q))
          (Ideal.ofBits .f32 0x00000000#32) := by
  unfold layer1
  rw [maximumf_apply, addf_apply, addf_apply, dot_100000x32_apply, dot_100000x32_apply, row_bcast_apply, zero_bcast_apply]

theorem layer2_apply (mean h : (⟨S100000x128, .f32⟩ : BufTy).Contents (Elt Ideal)) (Wl Wr : (⟨S128x128, .f32⟩ : BufTy).Contents (Elt Ideal))
    (brow : (⟨S1x128, .f32⟩ : BufTy).Contents (Elt Ideal)) (Wlin : (⟨S128x1, .f32⟩ : BufTy).Contents (Elt Ideal))
    (lrow : (⟨S1x1, .f32⟩ : BufTy).Contents (Elt Ideal)) (r : Fin 100000) (q : Fin 1) :
    layer2 (F := Ideal) mean h Wl Wr brow Wlin lrow (ix2 r q)
      = (∑ j : Fin 128, ((∑ k : Fin 128, mean (ix2 r k) * Wl (ix2 k j) + ∑ k : Fin 128, h (ix2 r k) * Wr (ix2 k j)) + brow (ix2 (0 : Fin 1) j))
            * Wlin (ix2 j q))
          + lrow (ix2 (0 : Fin 1) q) := by
  unfold layer2
  rw [addf_apply, dot_100000x128_col_apply, head_bcast_apply]
  refine congrArg (· + lrow (ix2 (0 : Fin 1) q)) (Finset.sum_congr rfl fun j _ => ?_)
  rw [addf_apply, addf_apply, dot_100000x128_apply, dot_100000x128_apply, row_bcast_apply]

end Cert.ReferenceIdeal.Hand

end
-- ==== Proof.Region0.lean ====
/-
  Region 1 of the kernel program (the layer-1 kernel) in closed form, at ANY buffer contents `V` on entry: its output
  array ends at layer 1 of the arrays its windows stage,
      out (v, j) = max ((Σ_k mean (v,k) · Wl (k,j) + Σ_k x (v,k) · Wr (k,j)) + b (0,j)) 0.
  Grid point t stages rows 5000·t … 5000·t + 4999 of the mean and of x, the two whole weight matrices and the whole
  bias row, and writes rows 5000·t … 5000·t + 4999 of the output: so what point t writes back is block t of that one
  whole-array function, and the twenty blocks cover the N rows (row v is in block v / 5000).
-/
import proofs.«126448_j17171279250059_1_alg».proof.Proof.Gen.KernelIdeal.Frame
import proofs.«126448_j17171279250059_1_alg».proof.Proof.Payloads
import proofs.«126448_j17171279250059_1_alg».proof.Proof.Layers
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.ReferenceIdeal.Hand (layer1 layer1_apply)

theorem hz2 : (![0, 0] : Fin 2 → Nat) = fun _ => 0 := funext fun a => by fin_cases a <;> rfl

/-- One stored block against the whole-array function, over plain variables: if the staged blocks are rows
    5000·t … of `mean` and `x`, the whole matrices and the whole bias row, then the stored block at (p, q) is layer 1 at
    any index whose coordinates are (5000·t + p, q). -/
theorem block0_eq (x0 x1 : Vec Ideal S5000x32 .f32) (x2 x3 : Vec Ideal S32x128 .f32) (x4 : Vec Ideal S1x128 .f32)
    (mean x : (⟨Cert.ReferenceIdeal.S100000x32, .f32⟩ : BufTy).Contents (Elt Ideal))
    (Wl Wr : (⟨Cert.ReferenceIdeal.S32x128, .f32⟩ : BufTy).Contents (Elt Ideal))
    (brow : (⟨Cert.ReferenceIdeal.S1x128, .f32⟩ : BufTy).Contents (Elt Ideal)) (t : Nat)
    (h0 : ∀ (p : Fin 5000) (k : Fin 32) (r : Fin 100000), r.val = 5000 * t + p.val → x0 (ix2 p k) = mean (ix2 r k))
    (h1 : ∀ (p : Fin 5000) (k : Fin 32) (r : Fin 100000), r.val = 5000 * t + p.val → x1 (ix2 p k) = x (ix2 r k))
    (h2 : ∀ (k : Fin 32) (q : Fin 128), x2 (ix2 k q) = Wl (ix2 k q))
    (h3 : ∀ (k : Fin 32) (q : Fin 128), x3 (ix2 k q) = Wr (ix2 k q))
    (h4 : ∀ q : Fin 128, x4 (ix2 (0 : Fin 1) q) = brow (ix2 (0 : Fin 1) q))
    (p : Fin 5000) (q : Fin 128) (r : Fin 100000) (hr : r.val = 5000 * t + p.val) :
    k0_pay1 (F := Ideal) x0 x1 x2 x3 x4 (ix2 p q) = layer1 (F := Ideal) mean x Wl Wr brow (ix2 r q) := by
  rw [pay0_apply, layer1_apply, h4 q]
  congr 2
  congr 1
  · exact Finset.sum_congr rfl fun k _ => by rw [h0 p k r hr, h2 k q]
  · exact Finset.sum_congr rfl fun k _ => by rw [h1 p k r hr, h3 k q]

variable (V : (c : Dev nD) → (b : Ref sig .tc) → Buf (Elt Ideal) ((c : Thread nD τ).loc b))

/-- The printed index maps, decided over the grid: the row windows move with the grid point, the others stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array function region 1 computes of the arrays it stages. -/
abbrev G0 (c : Dev nD) : Buf (Elt Ideal) ((c : Thread nD τ).loc main_v23) :=
  layer1 (F := Ideal) (V c main_v21) (V c main_arg0) (V c main_arg2) (V c main_arg3) (V c main_v22)

/-- What grid point t writes back is block t of `G0`. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S5000x32) hz2, View.ld_unit_zero (S := S32x128) hz2, View.ld_unit_zero (S := S1x128) hz2]
  obtain ⟨e00, e01, e10, e11, e20, e21, e30, e31, e40, e41, e50, e51⟩ := idx_facts0 t
  have ht : t.val < 20 := lt_of_lt_of_eq t.isLt N_0
  funext j
  have hj0 : (j 0).val < 5000 := (j 0).isLt
  have hj1 : (j 1).val < 128 := (j 1).isLt
  refine (congrArg (k0_pay1 (F := Ideal) (iblk0 V c 0 t) (iblk0 V c 1 t) (iblk0 V c 2 t) (iblk0 V c 3 t) (iblk0 V c 4 t)) (eq_ix2 j)).trans ?_
  refine (block0_eq (iblk0 V c 0 t) (iblk0 V c 1 t) (iblk0 V c 2 t) (iblk0 V c 3 t) (iblk0 V c 4 t)
    (V c main_v21) (V c main_arg0) (V c main_arg2) (V c main_arg3) (V c main_v22) t.val ?_ ?_ ?_ ?_ ?_ ⟨(j 0).val, hj0⟩ ⟨(j 1).val, hj1⟩
    ⟨5000 * t.val + (j 0).val, by omega⟩ rfl).trans ?_
  · intro p k r hr
    show V c main_v21 (((cfg0.win 0).blk t).view.emb (ix2 p k)) = V c main_v21 (ix2 r k)
    refine congrArg (V c main_v21) (funext fun a => Fin.ext ?_)
    match a with
    | ⟨0, _⟩ => show win0_0.index t (0 : Fin 2) * 5000 + 1 * p.val = r.val; omega
    | ⟨1, _⟩ => show win0_0.index t (1 : Fin 2) * 32 + 1 * k.val = k.val; omega
  · intro p k r hr
    show V c main_arg0 (((cfg0.win 1).blk t).view.emb (ix2 p k)) = V c main_arg0 (ix2 r k)
    refine congrArg (V c main_arg0) (funext fun a => Fin.ext ?_)
    match a with
    | ⟨0, _⟩ => show win0_1.index t (0 : Fin 2) * 5000 + 1 * p.val = r.val; omega
    | ⟨1, _⟩ => show win0_1.index t (1 : Fin 2) * 32 + 1 * k.val = k.val; omega
  · intro k q
    show V c main_arg2 (((cfg0.win 2).blk t).view.emb (ix2 k q)) = V c main_arg2 (ix2 k q)
    refine congrArg (V c main_arg2) (funext fun a => Fin.ext ?_)
    match a with
    | ⟨0, _⟩ => show win0_2.index t (0 : Fin 2) * 32 + 1 * k.val = k.val; omega
    | ⟨1, _⟩ => show win0_2.index t (1 : Fin 2) * 128 + 1 * q.val = q.val; omega
  · intro k q
    show V c main_arg3 (((cfg0.win 3).blk t).view.emb (ix2 k q)) = V c main_arg3 (ix2 k q)
    refine congrArg (V c main_arg3) (funext fun a => Fin.ext ?_)
    match a with
    | ⟨0, _⟩ => show win0_3.index t (0 : Fin 2) * 32 + 1 * k.val = k.val; omega
    | ⟨1, _⟩ => show win0_3.index t (1 : Fin 2) * 128 + 1 * q.val = q.val; omega
  · intro q
    show V c main_v22 (((cfg0.win 4).blk t).view.emb (ix2 (0 : Fin 1) q)) = V c main_v22 (ix2 (0 : Fin 1) q)
    refine congrArg (V c main_v22) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  · show G0 V c _ = G0 V c (((cfg0.win 5).blk t).view.emb j)
    refine congrArg (G0 V c) (funext fun a => Fin.ext ?_)
    match a with
    | ⟨0, _⟩ => show 5000 * t.val + (j 0).val = win0_5.index t (0 : Fin 2) * 5000 + 1 * (j 0).val; omega
    | ⟨1, _⟩ => show (j 1).val = win0_5.index t (1 : Fin 2) * 128 + 1 * (j 1).val; omega

/-- An index of the output array is in point t's block iff its row is among the block's 5000. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every row of the output is in some point's block: row v in block v / 5000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, e20, e21, e30, e31, e40, e41, e50, e51⟩ := idx_facts0 t
  have htv : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array of region 1 after its twenty grid points. -/
theorem final0 (c : Dev nD) : (dat0 V c).arrAt 5 cfg0.N = G0 V c :=
  (dat0 V c).arrAt_eq_of_cover 5 (G0 V c) (fun t _ => flushed0_eq V c t) cover0

end Cert.KernelIdeal.Hand

end
-- ==== Proof.Region1.lean ====
/-
  Region 2 of the kernel program (the layer-2 kernel with the linear head) in closed form, at ANY buffer contents `V` on
  entry: its output column ends at layer 2 of the arrays its windows stage,
      out (v, 0) = Σ_j ((Σ_k mean (v,k) · Wl (k,j) + Σ_k h (v,k) · Wr (k,j)) + b (0,j)) · Wlin (j,0) + blin (0,0).
  Grid point t stages rows 5000·t … 5000·t + 4999 of the mean and of h, the whole weight matrices, the bias row, the head's
  column and the head's bias, and writes rows 5000·t … 5000·t + 4999 of the output column; the twenty blocks cover the N rows.
-/
import proofs.«126448_j17171279250059_1_alg».proof.Proof.Gen.KernelIdeal.Frame
import proofs.«126448_j17171279250059_1_alg».proof.Proof.Payloads
import proofs.«126448_j17171279250059_1_alg».proof.Proof.Layers
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.ReferenceIdeal.Hand (layer2 layer2_apply)

theorem hz2' : (![0, 0] : Fin 2 → Nat) = fun _ => 0 := funext fun a => by fin_cases a <;> rfl

/-- One stored block against the whole-array function, over plain variables: if the staged blocks are rows 5000·t … of
    `mean` and `h` and the whole smaller arrays, then the stored block at (p, q) is layer 2 at (5000·t + p, q). -/
theorem block1_eq (x0 x1 : Vec Ideal S5000x128 .f32) (x2 x3 : Vec Ideal S128x128 .f32) (x4 : Vec Ideal S1x128 .f32)
    (x5 : Vec Ideal S128x1 .f32) (x6 : Vec Ideal S1x1 .f32)
    (mean h : (⟨Cert.ReferenceIdeal.S100000x128, .f32⟩ : BufTy).Contents (Elt Ideal))
    (Wl Wr : (⟨Cert.ReferenceIdeal.S128x128, .f32⟩ : BufTy).Contents (Elt Ideal))
    (brow : (⟨Cert.ReferenceIdeal.S1x128, .f32⟩ : BufTy).Contents (Elt Ideal))
    (Wlin : (⟨Cert.ReferenceIdeal.S128x1, .f32⟩ : BufTy).Contents (Elt Ideal))
    (lrow : (⟨Cert.ReferenceIdeal.S1x1, .f32⟩ : BufTy).Contents (Elt Ideal)) (t : Nat)
    (h0 : ∀ (p : Fin 5000) (k : Fin 128) (r : Fin 100000), r.val = 5000 * t + p.val → x0 (ix2 p k) = mean (ix2 r k))
    (h1 : ∀ (p : Fin 5000) (k : Fin 128) (r : Fin 100000), r.val = 5000 * t + p.val → x1 (ix2 p k) = h (ix2 r k))
    (h2 : ∀ (k : Fin 128) (q : Fin 128), x2 (ix2 k q) = Wl (ix2 k q))
    (h3 : ∀ (k : Fin 128) (q : Fin 128), x3 (ix2 k q) = Wr (ix2 k q))
    (h4 : ∀ q : Fin 128, x4 (ix2 (0 : Fin 1) q) = brow (ix2 (0 : Fin 1) q))
    (h5 : ∀ (k : Fin 128) (q : Fin 1), x5 (ix2 k q) = Wlin (ix2 k q))
    (h6 : ∀ q : Fin 1, x6 (ix2 (0 : Fin 1) q) = lrow (ix2 (0 : Fin 1) q))
    (p : Fin 5000) (q : Fin 1) (r : Fin 100000) (hr : r.val = 5000 * t + p.val) :
    k1_pay1 (F := Ideal) x0 x1 x2 x3 x4 x5 x6 (ix2 p q) = layer2 (F := Ideal) mean h Wl Wr brow Wlin lrow (ix2 r q) := by
  rw [pay1_apply, layer2_apply, h6 q]
  congr 1
  refine Finset.sum_congr rfl fun j _ => ?_
  rw [h4 j, h5 j q]
  congr 2
  congr 1
  · exact Finset.sum_congr rfl fun k _ => by rw [h0 p k r hr, h2 k j]
  · exact Finset.sum_congr rfl fun k _ => by rw [h1 p k r hr, h3 k j]

variable (V : (c : Dev nD) → (b : Ref sig .tc) → Buf (Elt Ideal) ((c : Thread nD τ).loc b))

/-- The printed index maps, decided over the grid: the row windows move with the grid point, the others stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The whole-array function region 2 computes of the arrays it stages. -/
abbrev G1 (c : Dev nD) : Buf (Elt Ideal) ((c : Thread nD τ).loc main_v38) :=
  layer2 (F := Ideal) (V c main_v35) (V c main_v23) (V c main_arg5) (V c main_arg6) (V c main_v36) (V c main_arg8) (V c main_v37)

/-- What grid point t writes back is block t of `G1`. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz2']
  simp only [View.ld_unit_zero (S := S5000x128) hz2', View.ld_unit_zero (S := S128x128) hz2', View.ld_unit_zero (S := S1x128) hz2',
    View.ld_unit_zero (S := S128x1) hz2', View.ld_unit_zero (S := S1x1) hz2']
  obtain ⟨e00, e01, e10, e11, e20, e21, e30, e31, e40, e41, e50, e51, e60, e61, e70, e71⟩ := idx_facts1 t
  have ht : t.val < 20 := lt_of_lt_of_eq t.isLt N_1
  funext j
  have hj0 : (j 0).val < 5000 := (j 0).isLt
  have hj1 : (j 1).val < 1 := (j 1).isLt
  refine (congrArg (k1_pay1 (F := Ideal) (iblk1 V c 0 t) (iblk1 V c 1 t) (iblk1 V c 2 t) (iblk1 V c 3 t) (iblk1 V c 4 t) (iblk1 V c 5 t) (iblk1 V c 6 t)) (eq_ix2 j)).trans ?_
  refine (block1_eq (iblk1 V c 0 t) (iblk1 V c 1 t) (iblk1 V c 2 t) (iblk1 V c 3 t) (iblk1 V c 4 t) (iblk1 V c 5 t) (iblk1 V c 6 t)
    (V c main_v35) (V c main_v23) (V c main_arg5) (V c main_arg6) (V c main_v36) (V c main_arg8) (V c main_v37) t.val ?_ ?_ ?_ ?_ ?_ ?_ ?_
    ⟨(j 0).val, hj0⟩ ⟨(j 1).val, hj1⟩ ⟨5000 * t.val + (j 0).val, by omega⟩ rfl).trans ?_
  · intro p k r hr
    show V c main_v35 (((cfg1.win 0).blk t).view.emb (ix2 p k)) = V c main_v35 (ix2 r k)
    refine congrArg (V c main_v35) (funext fun a => Fin.ext ?_)
    match a with
    | ⟨0, _⟩ => show win1_0.index t (0 : Fin 2) * 5000 + 1 * p.val = r.val; omega
    | ⟨1, _⟩ => show win1_0.index t (1 : Fin 2) * 128 + 1 * k.val = k.val; omega
  · intro p k r hr
    show V c main_v23 (((cfg1.win 1).blk t).view.emb (ix2 p k)) = V c main_v23 (ix2 r k)
    refine congrArg (V c main_v23) (funext fun a => Fin.ext ?_)
    match a with
    | ⟨0, _⟩ => show win1_1.index t (0 : Fin 2) * 5000 + 1 * p.val = r.val; omega
    | ⟨1, _⟩ => show win1_1.index t (1 : Fin 2) * 128 + 1 * k.val = k.val; omega
  · intro k q
    show V c main_arg5 (((cfg1.win 2).blk t).view.emb (ix2 k q)) = V c main_arg5 (ix2 k q)
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro k q
    show V c main_arg6 (((cfg1.win 3).blk t).view.emb (ix2 k q)) = V c main_arg6 (ix2 k q)
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · intro q
    show V c main_v36 (((cfg1.win 4).blk t).view.emb (ix2 (0 : Fin 1) q)) = V c main_v36 (ix2 (0 : Fin 1) q)
    refine congrArg (V c main_v36) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  · intro k q
    show V c main_arg8 (((cfg1.win 5).blk t).view.emb (ix2 k q)) = V c main_arg8 (ix2 k q)
    refine congrArg (V c main_arg8) (funext fun a => Fin.ext ?_)
    match a with
    | ⟨0, _⟩ => show win1_5.index t (0 : Fin 2) * 128 + 1 * k.val = k.val; omega
    | ⟨1, _⟩ => show win1_5.index t (1 : Fin 2) * 1 + 1 * q.val = q.val; omega
  · intro q
    show V c main_v37 (((cfg1.win 6).blk t).view.emb (ix2 (0 : Fin 1) q)) = V c main_v37 (ix2 (0 : Fin 1) q)
    refine congrArg (V c main_v37) (funext fun a => Fin.ext ?_)
    match a with
    | ⟨0, _⟩ => show win1_6.index t (0 : Fin 2) * 1 + 1 * 0 = 0; omega
    | ⟨1, _⟩ => show win1_6.index t (1 : Fin 2) * 1 + 1 * q.val = q.val; omega
  · show G1 V c _ = G1 V c (((cfg1.win 7).blk t).view.emb j)
    refine congrArg (G1 V c) (funext fun a => Fin.ext ?_)
    match a with
    | ⟨0, _⟩ => show 5000 * t.val + (j 0).val = win1_7.index t (0 : Fin 2) * 5000 + 1 * (j 0).val; omega
    | ⟨1, _⟩ => show (j 1).val = win1_7.index t (1 : Fin 2) * 1 + 1 * (j 1).val; omega

/-- An index of the output column is in point t's block iff its row is among the block's 5000. -/
theorem mem_blk1 (t : Fin cfg1.N) (i : S100000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v38).slice (win1_7.rect t)).set ↔ _
  rw [View.set_slice_whole, Rect.mem_set_unit]
  exact Iff.rfl

/-- Every row of the output is in some point's block: row v in block v / 5000. -/
theorem cover1 (i : S100000x1.Idx) : ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 20 := N_1
  let t : Fin cfg1.N := ⟨(i 0).val / 5000, by rw [hN]; omega⟩
  obtain ⟨e00, e01, e10, e11, e20, e21, e30, e31, e40, e41, e50, e51, e60, e61, e70, e71⟩ := idx_facts1 t
  have htv : t.val = (i 0).val / 5000 := rfl
  refine ⟨t, flush1_7 t, ?_⟩
  rw [mem_blk1]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 1 ≤ (i 1).val ∧ (i 1).val < win1_7.index t (1 : Fin 2) * 1 + 1; omega

/-- The output column of region 2 after its twenty grid points. -/
theorem final1 (c : Dev nD) : (dat1 V c).arrAt 7 cfg1.N = G1 V c :=
  (dat1 V c).arrAt_eq_of_cover 7 (G1 V c) (fun t _ => flushed1_eq V c t) cover1

end Cert.KernelIdeal.Hand

end
-- ==== Proof.HostStretches.lean ====
/-
  The host stretches of the kernel program, read at ANY buffer contents `Wv` they start from, as the shared host
  functions of the layers' specification: the stretch before the first region computes the edge rows, the clipped
  in-degree column and the first neighbour mean; the stretch between the regions the second neighbour mean of the first
  region's output; the last line drops the unit axis. None of gather, scatter-add, division is opened: each side names
  them the same.
-/
import proofs.«126448_j17171279250059_1_alg».proof.Proof.Gen.KernelIdeal.Launch
import proofs.«126448_j17171279250059_1_alg».proof.Proof.Layers
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.Hand (srcRow dstRow wrapCol idxCol degRaw degCol mean32 mean128)

variable {F : FTy → Type} [FloatOps F]
variable (Wv : Valuation τ sig (Elt F))

/-- The three stretches before the first region, composed. -/
abbrev pre : Valuation τ sig (Elt F) := StableHlo.after hostOps0_2 (StableHlo.after hostOps0_1 (StableHlo.after hostOps0 Wv))

set_option maxHeartbeats 4000000 in
theorem pre_v21 : pre Wv (Proc.devRef .tc main_v21)
    = mean32 (F := F) (Wv (Proc.devRef .tc main_arg0)) (srcRow (Wv (Proc.devRef .tc main_arg1))) (dstRow (Wv (Proc.devRef .tc main_arg1)))
        (degCol (degRaw (dstRow (Wv (Proc.devRef .tc main_arg1))))) := by
  after_results_simp <;> rfl

set_option maxHeartbeats 4000000 in
theorem pre_v1 : pre Wv (Proc.devRef .tc main_v1) = srcRow (F := F) (Wv (Proc.devRef .tc main_arg1)) := by
  after_results_simp <;> rfl

set_option maxHeartbeats 4000000 in
theorem pre_v3 : pre Wv (Proc.devRef .tc main_v3) = dstRow (F := F) (Wv (Proc.devRef .tc main_arg1)) := by
  after_results_simp <;> rfl

set_option maxHeartbeats 4000000 in
theorem pre_v9 : pre Wv (Proc.devRef .tc main_v9) = degCol (F := F) (degRaw (dstRow (Wv (Proc.devRef .tc main_arg1)))) := by
  after_results_simp <;> rfl

set_option maxHeartbeats 4000000 in
theorem pre_v22 : pre Wv (Proc.devRef .tc main_v22) = shapeCast _ (Wv (Proc.devRef .tc main_arg4)) shapeCasts_S128_S1x128 := by
  after_results_simp <;> rfl

set_option maxHeartbeats 4000000 in
theorem pre_arg0 : pre Wv (Proc.devRef .tc main_arg0) = Wv (Proc.devRef .tc main_arg0) := by after_results_simp <;> rfl
set_option maxHeartbeats 4000000 in
theorem pre_arg2 : pre Wv (Proc.devRef .tc main_arg2) = Wv (Proc.devRef .tc main_arg2) := by after_results_simp <;> rfl
set_option maxHeartbeats 4000000 in
theorem pre_arg3 : pre Wv (Proc.devRef .tc main_arg3) = Wv (Proc.devRef .tc main_arg3) := by after_results_simp <;> rfl
set_option maxHeartbeats 4000000 in
theorem pre_arg5 : pre Wv (Proc.devRef .tc main_arg5) = Wv (Proc.devRef .tc main_arg5) := by after_results_simp <;> rfl
set_option maxHeartbeats 4000000 in
theorem pre_arg6 : pre Wv (Proc.devRef .tc main_arg6) = Wv (Proc.devRef .tc main_arg6) := by after_results_simp <;> rfl
set_option maxHeartbeats 4000000 in
theorem pre_arg7 : pre Wv (Proc.devRef .tc main_arg7) = Wv (Proc.devRef .tc main_arg7) := by after_results_simp <;> rfl
set_option maxHeartbeats 4000000 in
theorem pre_arg8 : pre Wv (Proc.devRef .tc main_arg8) = Wv (Proc.devRef .tc main_arg8) := by after_results_simp <;> rfl
set_option maxHeartbeats 4000000 in
theorem pre_arg9 : pre Wv (Proc.devRef .tc main_arg9) = Wv (Proc.devRef .tc main_arg9) := by after_results_simp <;> rfl

/-! The stretch between the regions. -/

set_option maxHeartbeats 4000000 in
theorem mid_v35 : StableHlo.after hostOps1 Wv (Proc.devRef .tc main_v35)
    = mean128 (F := F) (Wv (Proc.devRef .tc main_v23)) (Wv (Proc.devRef .tc main_v1)) (Wv (Proc.devRef .tc main_v3)) (Wv (Proc.devRef .tc main_v9)) := by
  after_results_simp <;> rfl

set_option maxHeartbeats 4000000 in
theorem mid_v23 : StableHlo.after hostOps1 Wv (Proc.devRef .tc main_v23) = Wv (Proc.devRef .tc main_v23) := by after_results_simp <;> rfl
set_option maxHeartbeats 4000000 in
theorem mid_arg5 : StableHlo.after hostOps1 Wv (Proc.devRef .tc main_arg5) = Wv (Proc.devRef .tc main_arg5) := by after_results_simp <;> rfl
set_option maxHeartbeats 4000000 in
theorem mid_arg6 : StableHlo.after hostOps1 Wv (Proc.devRef .tc main_arg6) = Wv (Proc.devRef .tc main_arg6) := by after_results_simp <;> rfl
set_option maxHeartbeats 4000000 in
theorem mid_arg8 : StableHlo.after hostOps1 Wv (Proc.devRef .tc main_arg8) = Wv (Proc.devRef .tc main_arg8) := by after_results_simp <;> rfl
set_option maxHeartbeats 4000000 in
theorem mid_v36 : StableHlo.after hostOps1 Wv (Proc.devRef .tc main_v36) = shapeCast _ (Wv (Proc.devRef .tc main_arg7)) shapeCasts_S128_S1x128 := by
  after_results_simp <;> rfl
set_option maxHeartbeats 4000000 in
theorem mid_v37 : StableHlo.after hostOps1 Wv (Proc.devRef .tc main_v37) = shapeCast _ (Wv (Proc.devRef .tc main_arg9)) shapeCasts_S1_S1x1 := by
  after_results_simp <;> rfl

/-! The last line. -/

theorem post_v39 : StableHlo.after hostOps2 Wv (Proc.devRef .tc main_v39) = shapeCast _ (Wv (Proc.devRef .tc main_v38)) shapeCasts_S100000x1_S100000 := by
  after_results_simp <;> rfl

end Cert.KernelIdeal.Hand

end
-- ==== Proof.KernelValue.lean ====
/-
  The idealized kernel program's result as one function of its arguments: the network of the layers' specification.
  The last boundary's contents at the result buffer are walked back through the run's fold: the last host line drops the
  unit axis of the second region's output column; that column is layer 2 (the region's closed form) of the second
  neighbour mean and the first region's output, which the stretch between the regions computes from the first region's
  output array; that array is layer 1 (the first region's closed form) of the first neighbour mean and x, which the
  stretches before the first region compute from the arguments. The bias rows the kernel makes by a cast [128] → [1, 128]
  are the rows the reference makes by a broadcast.
-/
import proofs.«126448_j17171279250059_1_alg».proof.Proof.KernelRun
import proofs.«126448_j17171279250059_1_alg».proof.Proof.Region0
import proofs.«126448_j17171279250059_1_alg».proof.Proof.Region1
import proofs.«126448_j17171279250059_1_alg».proof.Proof.HostStretches
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Cert.ReferenceIdeal.Hand (srcRow dstRow degRaw degCol mean32 mean128 layer1 layer2 biasRow headRow network)

/-- A [128] vector cast to one row is that vector broadcast along the new axis. -/
theorem cast_eq_biasRow (b : (⟨S128, .f32⟩ : BufTy).Contents (Elt Ideal)) :
    shapeCast S1x128 b shapeCasts_S128_S1x128 = biasRow (F := Ideal) b := by
  funext j
  obtain ⟨u, i, rfl⟩ : ∃ (u : Fin 1) (i : Fin 128), j = ix2 u i := ⟨j 0, j 1, eq_ix2 j⟩
  rw [shapeCast_a_1a_apply]
  unfold biasRow
  exact (broadcastInDim_apply _ Cert.ReferenceIdeal.Gen.bcast_S128_S1x128_1 b (ix2 u i) (ix1 i) (fun a => match a with
    | ⟨0, _⟩ => by show i.val = if (128 : Nat) = 1 then 0 else i.val; rw [if_neg (by decide)])).symm

/-- A [1] vector cast to [1, 1] is that vector broadcast along the new axis. -/
theorem cast_eq_headRow (b : (⟨S1, .f32⟩ : BufTy).Contents (Elt Ideal)) :
    shapeCast S1x1 b shapeCasts_S1_S1x1 = headRow (F := Ideal) b := by
  funext j
  obtain ⟨u, i, rfl⟩ : ∃ (u : Fin 1) (i : Fin 1), j = ix2 u i := ⟨j 0, j 1, eq_ix2 j⟩
  rw [shapeCast_a_1a_apply]
  unfold headRow
  exact (broadcastInDim_apply _ Cert.ReferenceIdeal.Gen.bcast_S1_S1x1_1 b (ix2 u i) (ix1 i) (fun a => match a with
    | ⟨0, _⟩ => by show i.val = if (1 : Nat) = 1 then 0 else i.val; rw [if_pos rfl]; omega)).symm

variable (m : (ℓ : Loc nD τ sig) → Buf (Elt Ideal) ℓ) (ρ : Dev nD → PrngReg)

/-- The first layer's output on the arguments. -/
abbrev hidden (c : Dev nD) : (⟨Cert.ReferenceIdeal.S100000x128, .f32⟩ : BufTy).Contents (Elt Ideal) :=
  layer1 (F := Ideal)
    (mean32 (m ((c : Thread nD τ).loc main_arg0)) (srcRow (m ((c : Thread nD τ).loc main_arg1))) (dstRow (m ((c : Thread nD τ).loc main_arg1)))
      (degCol (degRaw (dstRow (m ((c : Thread nD τ).loc main_arg1))))))
    (m ((c : Thread nD τ).loc main_arg0)) (m ((c : Thread nD τ).loc main_arg2)) (m ((c : Thread nD τ).loc main_arg3))
    (biasRow (m ((c : Thread nD τ).loc main_arg4)))

/-- After the first region its output array holds the first layer's output. -/
theorem region0_out (c : Dev nD) : W4 m ρ c (Proc.devRef .tc main_v23) = hidden m c := by
  refine (W4_arr m ρ c 5).trans ((final0 (V3 m ρ) c).trans ?_)
  show layer1 (F := Ideal) (V3 m ρ c main_v21) (V3 m ρ c main_arg0) (V3 m ρ c main_arg2) (V3 m ρ c main_arg3) (V3 m ρ c main_v22) = _
  rw [show V3 m ρ c main_v21 = _ from pre_v21 (W0 m ρ c), show V3 m ρ c main_arg0 = _ from pre_arg0 (W0 m ρ c),
    show V3 m ρ c main_arg2 = _ from pre_arg2 (W0 m ρ c), show V3 m ρ c main_arg3 = _ from pre_arg3 (W0 m ρ c),
    show V3 m ρ c main_v22 = _ from pre_v22 (W0 m ρ c), cast_eq_biasRow]

/-- The buffers the stretch between the regions reads that the first region does not write are as the first stretches
    left them. -/
theorem kept_v1 (c : Dev nD) : W4 m ρ c (Proc.devRef .tc main_v1) = srcRow (F := Ideal) (m ((c : Thread nD τ).loc main_arg1)) :=
  (W4_of_ne m ρ c main_v1 (by decide)).trans (pre_v1 (W0 m ρ c))
theorem kept_v3 (c : Dev nD) : W4 m ρ c (Proc.devRef .tc main_v3) = dstRow (F := Ideal) (m ((c : Thread nD τ).loc main_arg1)) :=
  (W4_of_ne m ρ c main_v3 (by decide)).trans (pre_v3 (W0 m ρ c))
theorem kept_v9 (c : Dev nD) : W4 m ρ c (Proc.devRef .tc main_v9) = degCol (F := Ideal) (degRaw (dstRow (m ((c : Thread nD τ).loc main_arg1)))) :=
  (W4_of_ne m ρ c main_v9 (by decide)).trans (pre_v9 (W0 m ρ c))
theorem kept_arg5 (c : Dev nD) : W4 m ρ c (Proc.devRef .tc main_arg5) = m ((c : Thread nD τ).loc main_arg5) :=
  (W4_of_ne m ρ c main_arg5 (by decide)).trans (pre_arg5 (W0 m ρ c))
theorem kept_arg6 (c : Dev nD) : W4 m ρ c (Proc.devRef .tc main_arg6) = m ((c : Thread nD τ).loc main_arg6) :=
  (W4_of_ne m ρ c main_arg6 (by decide)).trans (pre_arg6 (W0 m ρ c))
theorem kept_arg7 (c : Dev nD) : W4 m ρ c (Proc.devRef .tc main_arg7) = m ((c : Thread nD τ).loc main_arg7) :=
  (W4_of_ne m ρ c main_arg7 (by decide)).trans (pre_arg7 (W0 m ρ c))
theorem kept_arg8 (c : Dev nD) : W4 m ρ c (Proc.devRef .tc main_arg8) = m ((c : Thread nD τ).loc main_arg8) :=
  (W4_of_ne m ρ c main_arg8 (by decide)).trans (pre_arg8 (W0 m ρ c))
theorem kept_arg9 (c : Dev nD) : W4 m ρ c (Proc.devRef .tc main_arg9) = m ((c : Thread nD τ).loc main_arg9) :=
  (W4_of_ne m ρ c main_arg9 (by decide)).trans (pre_arg9 (W0 m ρ c))

/-- After the second region its output column holds layer 2 of the second neighbour mean and the first layer's output. -/
theorem region1_out (c : Dev nD) : W6 m ρ c (Proc.devRef .tc main_v38)
    = layer2 (F := Ideal)
        (mean128 (hidden m c) (srcRow (m ((c : Thread nD τ).loc main_arg1))) (dstRow (m ((c : Thread nD τ).loc main_arg1)))
          (degCol (degRaw (dstRow (m ((c : Thread nD τ).loc main_arg1))))))
        (hidden m c) (m ((c : Thread nD τ).loc main_arg5)) (m ((c : Thread nD τ).loc main_arg6)) (biasRow (m ((c : Thread nD τ).loc main_arg7)))
        (m ((c : Thread nD τ).loc main_arg8)) (headRow (m ((c : Thread nD τ).loc main_arg9))) := by
  refine (W6_arr m ρ c 7).trans ((final1 (V5 m ρ) c).trans ?_)
  show layer2 (F := Ideal) (V5 m ρ c main_v35) (V5 m ρ c main_v23) (V5 m ρ c main_arg5) (V5 m ρ c main_arg6) (V5 m ρ c main_v36)
    (V5 m ρ c main_arg8) (V5 m ρ c main_v37) = _
  rw [show V5 m ρ c main_v35 = _ from mid_v35 (W4 m ρ c), show V5 m ρ c main_v23 = _ from mid_v23 (W4 m ρ c),
    show V5 m ρ c main_arg5 = _ from mid_arg5 (W4 m ρ c), show V5 m ρ c main_arg6 = _ from mid_arg6 (W4 m ρ c),
    show V5 m ρ c main_v36 = _ from mid_v36 (W4 m ρ c), show V5 m ρ c main_arg8 = _ from mid_arg8 (W4 m ρ c),
    show V5 m ρ c main_v37 = _ from mid_v37 (W4 m ρ c),
    region0_out, kept_v1, kept_v3, kept_v9, kept_arg5, kept_arg6, kept_arg7, kept_arg8, kept_arg9, cast_eq_biasRow, cast_eq_headRow]

/-- THE RESULT: the last boundary's contents at the result buffer are the network of the arguments. -/
theorem result_eq (c : Dev nD) : W7 m ρ c (Proc.devRef .tc main_v39)
    = network (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (post_v39 (W6 m ρ c)).trans ?_
  rw [region1_out]
  rfl

/-- The run of the idealized kernel program with its result at the network of the arguments, the arguments unchanged. -/
theorem run : θ_run defs (onTc (τ := τ) (main (F := Ideal))) ⟨m, fun _ => 0, ρ⟩ (fun r => ∀ c : Dev nD,
      r.2.mem ((c.tc : Thread nD τ).loc main_v39)
        = network (F := Ideal) (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_main m ρ)

end Cert.KernelIdeal.Hand

end
-- ==== Proof.ReferenceValue.lean ====
/-
  The reference's result as the network of the layers' specification: the term its run ends at spells the same host
  operations on the same arguments, the first layer's output written out twice (once under the second neighbour mean,
  once as the layer's own input).
-/
import proofs.«126448_j17171279250059_1_alg».proof.Proof.Gen.ReferenceIdeal.Run
import proofs.«126448_j17171279250059_1_alg».proof.Proof.Layers

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 4000000 in
theorem result_eq (m : (ℓ : Loc nD τ sig) → Buf (Elt F) ℓ) (c : Dev nD) :
    Cert.ReferenceIdeal.Value.res_main_v57 m c
      = network (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v57 network layer2 layer1 mean128 mean32 degCol degRaw idxCol wrapCol srcRow dstRow biasRow headRow
  rfl

end Cert.ReferenceIdeal.Hand

end
-- ==== Proof.lean ====
/-
  A two-layer GraphSAGE network with a linear head on N = 100000 nodes and E = 1600000 edges: the kernel program (two
  tiled kernels for the dense parts of the layers, the edge gather, scatter-add and degree division on the host)
  against its jnp reference, at the ideal values.

  Both compute, with mean X the neighbour mean of a feature array X (the sum of X over the edges into a node divided by
  the in-degree clipped below at one),
      h   = max (mean x · W_l1 + x · W_r1 + b1) 0
      out = (mean h · W_l2 + h · W_r2 + b2) · W_lin + b_lin.
  The kernels work on blocks of 5000 rows and narrow their operands to bf16 before each product into a zero accumulator;
  at the ideal values a narrowing changes nothing and such a product is the plain sum of products, which is also what the
  host's dot_general is: each region's output array is the reference's layer as ONE whole-array function of the arrays
  the region stages (the blocks tile the rows). Gather, scatter-add and division are applied by both programs to equal
  arrays and are never opened. No law of the extended reals beyond this reading is used, so the precondition is not
  opened. The ideal pass rewrote nothing, so `preserves` is trivial.
-/
import proofs.«126448_j17171279250059_1_alg».proof.Defs
import proofs.«126448_j17171279250059_1_alg».proof.Proof.Gen.Kernel
import proofs.«126448_j17171279250059_1_alg».proof.Proof.Gen.Kernel.Frame
import proofs.«126448_j17171279250059_1_alg».proof.Proof.Gen.KernelIdeal
import proofs.«126448_j17171279250059_1_alg».proof.Proof.Gen.KernelIdeal.Frame
import proofs.«126448_j17171279250059_1_alg».proof.Proof.Gen.ReferenceIdeal
import proofs.«126448_j17171279250059_1_alg».proof.Proof.Gen.ReferenceIdeal.Run
import proofs.«126448_j17171279250059_1_alg».proof.Proof.Gen.Pre_finite_inputs
import proofs.«126448_j17171279250059_1_alg».proof.Proof.KernelValue
import proofs.«126448_j17171279250059_1_alg».proof.Proof.ReferenceValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the network of their arguments, and the arguments agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.result_eq]
  obtain ⟨a0, a1, a2, a3, a4, a5, a6, a7, a8, a9⟩ := hagree c
  rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
